-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x2 : Shape := ⟨3, ![256, 256, 2]⟩
abbrev S512x256x256 : Shape := ⟨3, ![512, 256, 256]⟩
abbrev S512x2 : Shape := ⟨2, ![512, 2]⟩
abbrev S512x1 : Shape := ⟨2, ![512, 1]⟩
abbrev S_ : Shape := ⟨0, ![]⟩

class Facts : Prop where
  bcast_S_S256x256x2 : S_.BroadcastsInDim S256x256x2 (![] : Fin 0 → Fin S256x256x2.rank)
  reducesTo_S256x256x2_S_d0_1_2 : S256x256x2.ReducesTo [0, 1, 2] S_
  h_S_ : 0 < S_.numel
  bcast_S_S512x256x256 : S_.BroadcastsInDim S512x256x256 (![] : Fin 0 → Fin S512x256x256.rank)
  reducesTo_S512x256x256_S_d0_1_2 : S512x256x256.ReducesTo [0, 1, 2] S_
  bcast_S_S512x2 : S_.BroadcastsInDim S512x2 (![] : Fin 0 → Fin S512x2.rank)
  reducesTo_S512x2_S_d0_1 : S512x2.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_arg4 : FVec F S512x1 .f32) (main_arg5 : FVec F S512x1 .f32) (main_v13 : IVec S_ 1) (main_v16 : IVec S512x2 1) : IVec S_ 1 :=
  let main_c_5 : IVec S_ 1 := constantI S_ 1 1#1
  let main_v17 : IVec S_ 1 := (fun x v => Host.reduce IntOp.andi x v reducesTo_S512x2_S_d0_1 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S512x1 .f32 := Host.absf main_arg5
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  main_v28

def fn {F : FTy → Type} [FloatOps F] (main_arg0 : FVec F S256x256x2 .f32) (main_arg1 : FVec F S512x256x256 .f32) (main_arg2 : FVec F S512x2 .f32) (main_arg3 : FVec F S512x2 .f32) (main_arg4 : FVec F S512x1 .f32) (main_arg5 : FVec F S512x1 .f32) : IVec S_ 1 :=
  let main_v0 : FVec F S256x256x2 .f32 := Host.absf main_arg0
  let main_cst : FVec F S_ .f32 := constant S_ .f32 0x7F800000#32
  let main_v1 : FVec F S256x256x2 .f32 := broadcastInDim S256x256x2 ![] bcast_S_S256x256x2 main_cst
  let main_v2 : IVec S256x256x2 1 := cmpf .olt main_v0 main_v1
  let main_c : IVec S_ 1 := constantI S_ 1 1#1
  let main_v3 : IVec S_ 1 := (fun x v => Host.reduce IntOp.andi x v reducesTo_S256x256x2_S_d0_1_2 h_S_) main_v2 main_c
  let main_v4 : FVec F S512x256x256 .f32 := Host.absf main_arg1
  let main_cst_0 : FVec F S_ .f32 := constant S_ .f32 0x7F800000#32
  let main_v5 : FVec F S512x256x256 .f32 := broadcastInDim S512x256x256 ![] bcast_S_S512x256x256 main_cst_0
  let main_v6 : IVec S512x256x256 1 := cmpf .olt main_v4 main_v5
  let main_c_1 : IVec S_ 1 := constantI S_ 1 1#1
  let main_v7 : IVec S_ 1 := (fun x v => Host.reduce IntOp.andi x v reducesTo_S512x256x256_S_d0_1_2 h_S_) main_v6 main_c_1
  let main_v8 : IVec S_ 1 := andi main_v3 main_v7
  let main_v9 : FVec F S512x2 .f32 := Host.absf main_arg2
  let main_cst_2 : FVec F S_ .f32 := constant S_ .f32 0x7F800000#32
  let main_v10 : FVec F S512x2 .f32 := broadcastInDim S512x2 ![] bcast_S_S512x2 main_cst_2
  let main_v11 : IVec S512x2 1 := cmpf .olt main_v9 main_v10
  let main_c_3 : IVec S_ 1 := constantI S_ 1 1#1
  let main_v12 : IVec S_ 1 := (fun x v => Host.reduce IntOp.andi x v reducesTo_S512x2_S_d0_1 h_S_) main_v11 main_c_3
  let main_v13 : IVec S_ 1 := andi main_v8 main_v12
  let main_v14 : FVec F S512x2 .f32 := Host.absf main_arg3
  let main_cst_4 : FVec F S_ .f32 := constant S_ .f32 0x7F800000#32
  let main_v15 : FVec F S512x2 .f32 := broadcastInDim S512x2 ![] bcast_S_S512x2 main_cst_4
  let main_v16 : IVec S512x2 1 := cmpf .olt main_v14 main_v15
  fn_part1 (F := F) main_arg4 main_arg5 main_v13 main_v16
-- ==== Kernel.lean ====
abbrev S256x256x2 : Shape := ⟨3, ![256, 256, 2]⟩
abbrev S512x256x256 : Shape := ⟨3, ![512, 256, 256]⟩
abbrev S512x2 : Shape := ⟨2, ![512, 2]⟩
abbrev S512x1 : Shape := ⟨2, ![512, 1]⟩
abbrev S256x256x1 : Shape := ⟨3, ![256, 256, 1]⟩
abbrev S256x256 : Shape := ⟨2, ![256, 256]⟩
abbrev S1x1 : Shape := ⟨2, ![1, 1]⟩
abbrev S16x2 : Shape := ⟨2, ![16, 2]⟩
abbrev S16x1 : Shape := ⟨2, ![16, 1]⟩
abbrev S64x256 : Shape := ⟨2, ![64, 256]⟩
abbrev S16x64x256 : Shape := ⟨3, ![16, 64, 256]⟩
abbrev S1x64x256 : Shape := ⟨3, ![1, 64, 256]⟩
abbrev S16x1x1 : Shape := ⟨3, ![16, 1, 1]⟩
abbrev S16x64 : Shape := ⟨2, ![16, 64]⟩
abbrev S16 : Shape := ⟨1, ![16]⟩
abbrev S1 : Shape := ⟨1, ![1]⟩
abbrev S_ : Shape := ⟨0, ![]⟩

abbrev nBuf : Space → Nat
  | .hbm => 12
  | .vmem => 16
  | .smem => 0
  | _ => 0

abbrev bufTy : (tb : Table) → Fin (tcTables nBuf tb) → BufTy
  | .hbm, ⟨0, _⟩ => ⟨S256x256x2, .f32⟩
  | .hbm, ⟨1, _⟩ => ⟨S512x256x256, .f32⟩
  | .hbm, ⟨2, _⟩ => ⟨S512x2, .f32⟩
  | .hbm, ⟨3, _⟩ => ⟨S512x2, .f32⟩
  | .hbm, ⟨4, _⟩ => ⟨S512x1, .f32⟩
  | .hbm, ⟨5, _⟩ => ⟨S512x1, .f32⟩
  | .hbm, ⟨6, _⟩ => ⟨S256x256x1, .f32⟩
  | .hbm, ⟨7, _⟩ => ⟨S256x256, .f32⟩
  | .hbm, ⟨8, _⟩ => ⟨S256x256x1, .f32⟩
  | .hbm, ⟨9, _⟩ => ⟨S256x256, .f32⟩
  | .hbm, ⟨10, _⟩ => ⟨S1x1, .f32⟩
  | .hbm, ⟨11, _⟩ => ⟨S_, .f32⟩
  | .local _ .vmem, ⟨0, _⟩ => ⟨S16x2, .f32⟩
  | .local _ .vmem, ⟨1, _⟩ => ⟨S16x2, .f32⟩
  | .local _ .vmem, ⟨2, _⟩ => ⟨S16x2, .f32⟩
  | .local _ .vmem, ⟨3, _⟩ => ⟨S16x2, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S16x64x256, .f32⟩
  | .local _ .vmem, ⟨13, _⟩ => ⟨S16x64x256, .f32⟩
  | .local _ .vmem, ⟨14, _⟩ => ⟨S1x1, .f32⟩
  | .local _ .vmem, ⟨15, _⟩ => ⟨S1x1, .f32⟩
  | _, _ => ⟨S256x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg0 : BitVec 32 := BitVec.ofNat 32 (i 0).val
  let c31_i32 : BitVec 32 := 31#32
  let v62 : BitVec 1 := Scalar.cmpi .eq arg0 c31_i32
  let arg1 : BitVec 32 := BitVec.ofNat 32 (i 1).val
  let c3_i32 : BitVec 32 := 3#32
  let v63 : BitVec 1 := Scalar.cmpi .eq arg1 c3_i32
  let v64 : BitVec 1 := Scalar.andi v62 v63
  let v65 : BitVec 32 := Scalar.extui v64
  let c0_i32_24 : BitVec 32 := 0#32
  let v66 : BitVec 1 := Scalar.cmpi .ne v65 c0_i32_24
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  slices_S256x256x2_S256x256x1_0_0_0 : S256x256x2.Slices ![0, 0, 0] S256x256x1
  shapeCasts_S256x256x1_S256x256 : S256x256x1.ShapeCasts S256x256
  slices_S256x256x2_S256x256x1_0_0_1 : S256x256x2.Slices ![0, 0, 1] S256x256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x2_S16x2_0_0 : ∀ a, (![0, 0] : Fin 2 → Nat) a + S16x2.size a ≤ S16x2.size a
  h_S16x2 : 0 < S16x2.numel
  slices_S16x2_o0_0_S16x1 : S16x2.Slices ![0, 0] S16x1
  slices_S16x2_o0_1_S16x1 : S16x2.Slices ![0, 1] S16x1
  inb_S16x1_S16x1_0_0 : ∀ a, (![0, 0] : Fin 2 → Nat) a + S16x1.size a ≤ S16x1.size a
  h_S16x1 : 0 < S16x1.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S1x64x256 : S64x256.ShapeCasts S1x64x256
  shapeCasts_S16x1_S16x1x1 : S16x1.ShapeCasts S16x1x1
  broadcasts_S1x64x256_S16x64x256 : S1x64x256.Broadcasts S16x64x256
  broadcasts_S16x1x1_S16x64x256 : S16x1x1.Broadcasts S16x64x256
  inb_S16x64x256_S16x64x256_0_0_0 : ∀ a, (![0, 0, 0] : Fin 3 → Nat) a + S16x64x256.size a ≤ S16x64x256.size a
  h_S16x64x256 : 0 < S16x64x256.numel
  reduces_S16x64x256_S16x64 : S16x64x256.Reduces [2] S16x64
  reduces_S16x64_S16 : S16x64.Reduces [1] S16
  shapeCasts_S16_S16x1 : S16.ShapeCasts S16x1
  reduces_S16x1_S1 : S16x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2.size a ≤ S512x2.size a
  hwx0_0 : ∀ i : grid0.Coords, EltTy.bits .f32 = 32 ∨ (Rect.block (s := S512x2) S16x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2.size a ≤ S512x2.size a
  hwx0_1 : ∀ i : grid0.Coords, EltTy.bits .f32 = 32 ∨ (Rect.block (s := S512x2) S16x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S512x1.size a
  hwx0_2 : ∀ i : grid0.Coords, EltTy.bits .f32 = 32 ∨ (Rect.block (s := S512x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S512x1.size a
  hwx0_3 : ∀ i : grid0.Coords, EltTy.bits .f32 = 32 ∨ (Rect.block (s := S512x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S256x256.size a
  hwx0_4 : ∀ i : grid0.Coords, EltTy.bits .f32 = 32 ∨ (Rect.block (s := S256x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S256x256.size a
  hwx0_5 : ∀ i : grid0.Coords, EltTy.bits .f32 = 32 ∨ (Rect.block (s := S256x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x64x256.size a ≤ S512x256x256.size a
  hwx0_6 : ∀ i : grid0.Coords, EltTy.bits .f32 = 32 ∨ (Rect.block (s := S512x256x256) S16x64x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

abbrev win0_0 : Pipeline.Window sig grid0 :=
  Pipeline.Window.ofSpec (Memref.whole main_arg2) S16x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S16x64x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S256x256x2 : Shape := ⟨3, ![256, 256, 2]⟩
abbrev S512x256x256 : Shape := ⟨3, ![512, 256, 256]⟩
abbrev S512x2 : Shape := ⟨2, ![512, 2]⟩
abbrev S512x1 : Shape := ⟨2, ![512, 1]⟩
abbrev S65536x2 : Shape := ⟨2, ![65536, 2]⟩
abbrev S1x65536x2 : Shape := ⟨3, ![1, 65536, 2]⟩
abbrev S512x1x2 : Shape := ⟨3, ![512, 1, 2]⟩
abbrev S512x65536x2 : Shape := ⟨3, ![512, 65536, 2]⟩
abbrev S512x65536x1 : Shape := ⟨3, ![512, 65536, 1]⟩
abbrev S512x65536 : Shape := ⟨2, ![512, 65536]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S256x256x2, .f32⟩
  | .hbm, ⟨1, _⟩ => ⟨S512x256x256, .f32⟩
  | .hbm, ⟨2, _⟩ => ⟨S512x2, .f32⟩
  | .hbm, ⟨3, _⟩ => ⟨S512x2, .f32⟩
  | .hbm, ⟨4, _⟩ => ⟨S512x1, .f32⟩
  | .hbm, ⟨5, _⟩ => ⟨S512x1, .f32⟩
  | .hbm, ⟨6, _⟩ => ⟨S65536x2, .f32⟩
  | .hbm, ⟨7, _⟩ => ⟨S1x65536x2, .f32⟩
  | .hbm, ⟨8, _⟩ => ⟨S512x1x2, .f32⟩
  | .hbm, ⟨9, _⟩ => ⟨S512x65536x2, .f32⟩
  | .hbm, ⟨10, _⟩ => ⟨S512x65536x2, .f32⟩
  | .hbm, ⟨11, _⟩ => ⟨S512x65536x2, .f32⟩
  | .hbm, ⟨12, _⟩ => ⟨S512x1, .f32⟩
  | .hbm, ⟨13, _⟩ => ⟨S512x1, .f32⟩
  | .hbm, ⟨14, _⟩ => ⟨S512x65536x1, .f32⟩
  | .hbm, ⟨15, _⟩ => ⟨S512x65536, .f32⟩
  | .hbm, ⟨16, _⟩ => ⟨S512x65536x1, .f32⟩
  | .hbm, ⟨17, _⟩ => ⟨S512x65536, .f32⟩
  | .hbm, ⟨18, _⟩ => ⟨S512x65536, .f32⟩
  | .hbm, ⟨19, _⟩ => ⟨S512x65536, .f32⟩
  | .hbm, ⟨20, _⟩ => ⟨S512x65536, .f32⟩
  | .hbm, ⟨21, _⟩ => ⟨S_, .f32⟩
  | .hbm, ⟨22, _⟩ => ⟨S512x65536, .f32⟩
  | .hbm, ⟨23, _⟩ => ⟨S512x65536, .f32⟩
  | .hbm, ⟨24, _⟩ => ⟨S512x65536, .f32⟩
  | .hbm, ⟨25, _⟩ => ⟨S512x65536, .f32⟩
  | .hbm, ⟨26, _⟩ => ⟨S512x65536, .f32⟩
  | .hbm, ⟨27, _⟩ => ⟨S512x65536, .f32⟩
  | .hbm, ⟨28, _⟩ => ⟨S512x65536, .f32⟩
  | .hbm, ⟨29, _⟩ => ⟨S512x65536, .f32⟩
  | .hbm, ⟨30, _⟩ => ⟨S512x65536, .f32⟩
  | .hbm, ⟨31, _⟩ => ⟨S512x65536, .f32⟩
  | .hbm, ⟨32, _⟩ => ⟨S_, .f32⟩
  | .hbm, ⟨33, _⟩ => ⟨S512x65536, .f32⟩
  | .hbm, ⟨34, _⟩ => ⟨S512x65536, .f32⟩
  | .hbm, ⟨35, _⟩ => ⟨S512x65536, .f32⟩
  | .hbm, ⟨36, _⟩ => ⟨S512x65536, .f32⟩
  | .hbm, ⟨37, _⟩ => ⟨S512x65536, .f32⟩
  | .hbm, ⟨38, _⟩ => ⟨S512x256x256, .f32⟩
  | .hbm, ⟨39, _⟩ => ⟨S512x256x256, .f32⟩
  | .hbm, ⟨40, _⟩ => ⟨S512x256x256, .f32⟩
  | .hbm, ⟨41, _⟩ => ⟨S_, .f32⟩
  | .hbm, ⟨42, _⟩ => ⟨S_, .f32⟩
  | _, _ => ⟨S256x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  shapeCasts_S256x256x2_S65536x2 : S256x256x2.ShapeCasts S65536x2
  bcast_S65536x2_S1x65536x2_1_2 : S65536x2.BroadcastsInDim S1x65536x2 (![1, 2] : Fin 2 → Fin S1x65536x2.rank)
  bcast_S512x2_S512x1x2_0_2 : S512x2.BroadcastsInDim S512x1x2 (![0, 2] : Fin 2 → Fin S512x1x2.rank)
  bcast_S1x65536x2_S512x65536x2_0_1_2 : S1x65536x2.BroadcastsInDim S512x65536x2 (![0, 1, 2] : Fin 3 → Fin S512x65536x2.rank)
  bcast_S512x1x2_S512x65536x2_0_1_2 : S512x1x2.BroadcastsInDim S512x65536x2 (![0, 1, 2] : Fin 3 → Fin S512x65536x2.rank)
  slices_S512x2_S512x1_0_0 : S512x2.Slices ![0, 0] S512x1
  slices_S512x2_S512x1_0_1 : S512x2.Slices ![0, 1] S512x1
  slices_S512x65536x2_S512x65536x1_0_0_0 : S512x65536x2.Slices ![0, 0, 0] S512x65536x1
  shapeCasts_S512x65536x1_S512x65536 : S512x65536x1.ShapeCasts S512x65536
  slices_S512x65536x2_S512x65536x1_0_0_1 : S512x65536x2.Slices ![0, 0, 1] S512x65536x1
  bcast_S512x1_S512x65536_0_1 : S512x1.BroadcastsInDim S512x65536 (![0, 1] : Fin 2 → Fin S512x65536.rank)
  bcast_S_S512x65536 : S_.BroadcastsInDim S512x65536 (![] : Fin 0 → Fin S512x65536.rank)
  shapeCasts_S512x65536_S512x256x256 : S512x65536.ShapeCasts S512x256x256
  reducesTo_S512x256x256_S_d0_1_2 : S512x256x256.ReducesTo [0, 1, 2] S_
  h_S_ : 0 < S_.numel

variable [Facts₀]

class Facts : Prop extends Facts₀ where

variable [Facts]
-- ==== Proof.Found.lean ====
/-
  What each of the body's three cases leaves behind, as values.

  At the first grid point (case A) the body clears its `[1, 1]` accumulator, reads the zero back and stores zero plus the
  tile's sum; at the points in between (case B) it stores what it found plus the tile's sum; at the last point (case C)
  it does the same and then copies the accumulator into the output block. The generated frame states these contents
  through the stores its run found; here each is read back as the body's one stored term `stored` of the point's input
  blocks and of the accumulator's previous contents.
-/
import proofs.«129653_j78932908966357_2_alg».proof.Proof.Gen.KernelIdeal.Frame
import Idealize.ShloMosaic.Lib.Pipeline.Value
import Idealize.ShloMosaic.Lib.Tactic

noncomputable section

namespace Cert.KernelIdeal.Found

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The body's one stored term: the accumulator's new contents from the point's seven input blocks (centres, covariance
    diagonals, off-diagonals, scales, the `x` plane, the `y` plane, the recorded activity) and its previous contents. -/
abbrev stored (x0 x1 : Vec F S16x2 .f32) (x2 x3 : Vec F S16x1 .f32) (x4 x5 : Vec F S64x256 .f32) (x6 : Vec F S16x64x256 .f32) (acc : Vec F S1x1 .f32) : Vec F S1x1 .f32 :=
  k0_pay1 (k0_pay4 x1) (k0_pay5 x3) (k0_pay6 x0 x1 x2 x4 x5) (k0_pay7 x0 x5) x6 acc

/-- The cleared accumulator. -/
abbrev cleared : Vec F S1x1 .f32 := k0_pay2

/-- CASE B leaves in the accumulator what it stores over what the point before left. -/
theorem acc_B (c : Dev nD) (i : grid0.Coords) (arg2 : Memref sig .tc .vmem S16x2 .f32) (harg2 : arg2.IsWhole) (arg3 : Memref sig .tc .vmem S16x2 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S16x64x256 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 : Vec F S16x2 .f32) (x2 x3 : Vec F S16x1 .f32) (x4 x5 : Vec F S64x256 .f32) (x6 : Vec F S16x64x256 .f32) (xs0 : Vec F S1x1 .f32) :
    sout0_B_0 c i arg2 harg2 arg3 harg3 arg4 harg4 arg5 harg5 arg6 harg6 arg7 harg7 arg8 harg8 arg9 harg9 arg10 harg10 hc0 hc1 x0 x1 x2 x3 x4 x5 x6 xs0 = stored x0 x1 x2 x3 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S1x1) hz2]
  simp only [View.readAt_eq_ld, harg2.read_unread, harg3.read_unread, harg4.read_unread, harg5.read_unread, harg6.read_unread, harg7.read_unread, harg8.read_unread, harg9.read_unread, harg10.read_unread, View.ld_unit_zero (S := S16x2) hz2, View.ld_unit_zero (S := S16x1) hz2, View.ld_unit_zero (S := S64x256) hz2, View.ld_unit_zero (S := S1x1) hz2, View.ld_unit_zero (S := S16x64x256) hz3]

/-- CASE C leaves the same in the accumulator … -/
theorem acc_C (c : Dev nD) (i : grid0.Coords) (arg2 : Memref sig .tc .vmem S16x2 .f32) (harg2 : arg2.IsWhole) (arg3 : Memref sig .tc .vmem S16x2 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S16x64x256 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S16x2 .f32) (x2 x3 : Vec F S16x1 .f32) (x4 x5 : Vec F S64x256 .f32) (x6 : Vec F S16x64x256 .f32) (xs0 : Vec F S1x1 .f32) :
    sout0_C_0 c i arg2 harg2 arg3 harg3 arg4 harg4 arg5 harg5 arg6 harg6 arg7 harg7 arg8 harg8 arg9 harg9 arg10 harg10 hc0 hc1 x0 x1 x2 x3 x4 x5 x6 xs0 = stored x0 x1 x2 x3 x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1x1) hz2]
  simp only [View.readAt_eq_ld, harg2.read_unread, harg3.read_unread, harg4.read_unread, harg5.read_unread, harg6.read_unread, harg7.read_unread, harg8.read_unread, harg9.read_unread, harg10.read_unread, View.ld_unit_zero (S := S16x2) hz2, View.ld_unit_zero (S := S16x1) hz2, View.ld_unit_zero (S := S64x256) hz2, View.ld_unit_zero (S := S1x1) hz2, View.ld_unit_zero (S := S16x64x256) hz3]

/-- … and copies it into the output block. -/
theorem out_C (c : Dev nD) (i : grid0.Coords) (arg2 : Memref sig .tc .vmem S16x2 .f32) (harg2 : arg2.IsWhole) (arg3 : Memref sig .tc .vmem S16x2 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S16x64x256 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S16x2 .f32) (x2 x3 : Vec F S16x1 .f32) (x4 x5 : Vec F S64x256 .f32) (x6 : Vec F S16x64x256 .f32) (xs0 : Vec F S1x1 .f32) :
    out0_C_7 c i arg2 harg2 arg3 harg3 arg4 harg4 arg5 harg5 arg6 harg6 arg7 harg7 arg8 harg8 arg9 harg9 arg10 harg10 hc0 hc1 x0 x1 x2 x3 x4 x5 x6 xs0 = stored x0 x1 x2 x3 x4 x5 x6 xs0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, View.ld_unit_zero (S := S16x2) hz2, View.ld_unit_zero (S := S16x1) hz2, View.ld_unit_zero (S := S64x256) hz2, View.ld_unit_zero (S := S1x1) hz2, View.ld_unit_zero (S := S16x64x256) hz3]

/-- CASE A leaves in the accumulator what it stores over the cleared accumulator. -/
theorem acc_A (c : Dev nD) (i : grid0.Coords) (arg2 : Memref sig .tc .vmem S16x2 .f32) (harg2 : arg2.IsWhole) (arg3 : Memref sig .tc .vmem S16x2 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S16x64x256 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 : Vec F S16x2 .f32) (x2 x3 : Vec F S16x1 .f32) (x4 x5 : Vec F S64x256 .f32) (x6 : Vec F S16x64x256 .f32) :
    sout0_A_0 c i arg2 harg2 arg3 harg3 arg4 harg4 arg5 harg5 arg6 harg6 arg7 harg7 arg8 harg8 arg9 harg9 arg10 harg10 hc0 hc1 x0 x1 x2 x3 x4 x5 x6 = stored x0 x1 x2 x3 x4 x5 x6 cleared := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, View.ld_unit_zero (S := S16x2) hz2, View.ld_unit_zero (S := S16x1) hz2, View.ld_unit_zero (S := S64x256) hz2, View.ld_unit_zero (S := S1x1) hz2, View.ld_unit_zero (S := S16x64x256) hz3]

end Cert.KernelIdeal.Found

end
-- ==== Proof.FieldError.lean ====
/-
  The squared error of a bank of 512 Gaussian place fields against recorded activity on a 256 x 256 grid of pixels,
  as ONE function of the argument arrays on the extended reals, and the law that lets the sum of its 512 * 256 * 256
  terms be taken tile by tile.

  Field `n` has centre `(mx n, my n)`, the symmetric inverse covariance `[[a n, b n], [b n, c n]]` and the scale `s n`.
  At the pixel `(h, w)`, whose coordinates are `(x, y)`, with `dx = x - mx n` and `dy = y - my n`, it predicts
  `s n * exp (-1/2 * (dx * dx * a n + 2 * dx * dy * b n + dy * dy * c n))`; the error is the sum over every field and
  every pixel of the square of the prediction minus the recorded activity (`sqAt` is one term of it).

  A tile is 16 consecutive fields by 64 consecutive pixel rows by all 256 pixel columns; the 32 * 4 tiles partition
  the index set, tile `t` holding the fields `16 * (t / 4) + r` and the rows `64 * (t % 4) + j`. Addition of extended
  reals is commutative and associative at the infinities too, so the sum of the tiles' sums is the sum: nothing here
  asks an input to be finite.
-/
import Idealize.ShloMosaic.PureOps.Ideal
import Idealize.ShloMosaic.PureOps.Ideal.Laws
import Idealize.ShloMosaic.Lib.ValueIdx

noncomputable section

namespace Cert.FieldError

open Idealize.ShloMosaic Idealize.ShloMosaic.ValueIdx

/-- The pixel coordinates: `[256, 256, 2]`, the last axis `(x, y)`. -/
abbrev SXY : Shape := ⟨3, ![256, 256, 2]⟩
/-- The recorded activity: `[512, 256, 256]`, field by pixel row by pixel column. -/
abbrev SAct : Shape := ⟨3, ![512, 256, 256]⟩
/-- Two numbers per field: the centre `(mx, my)`, and the diagonal `(a, c)` of the inverse covariance. -/
abbrev SPair : Shape := ⟨2, ![512, 2]⟩
/-- One number per field: the off-diagonal `b` of the inverse covariance, and the scale. -/
abbrev SCol : Shape := ⟨2, ![512, 1]⟩

/-- The factor `2` of the cross term, as the f32 word both programs write. -/
abbrev two : EReal := Ideal.ofBits .f32 0x40000000#32
/-- The factor `-1/2` of the exponent, as the f32 word both programs write. -/
abbrev negHalf : EReal := Ideal.ofBits .f32 0xBF000000#32

/-- One field at one pixel, from the nine numbers it depends on: the pixel's coordinates `(x, y)`, the field's centre
    `(mx, my)`, its inverse covariance `[[a, b], [b, c]]`, its scale `s`, and the recorded activity `act`. The products and
    sums are taken in the order both programs take them: `((dx dx) a + ((2 dx) dy) b) + (dy dy) c`, then `s * exp (-1/2 * q)`,
    minus the activity, squared. -/
def sqAt (x y mx my a b c s act : EReal) : EReal :=
  (s * Ideal.exp (negHalf * ((x - mx) * (x - mx) * a + two * (x - mx) * (y - my) * b + (y - my) * (y - my) * c)) - act)
    * (s * Ideal.exp (negHalf * ((x - mx) * (x - mx) * a + two * (x - mx) * (y - my) * b + (y - my) * (y - my) * c)) - act)

/-- The squared error of field `n` at the pixel `(h, w)`. -/
def sqErr (xy : SXY.Idx → EReal) (act : SAct.Idx → EReal) (mu cd : SPair.Idx → EReal) (co sc : SCol.Idx → EReal)
    (n : Fin 512) (h w : Fin 256) : EReal :=
  sqAt (xy (ix3 h w (0 : Fin 2))) (xy (ix3 h w (1 : Fin 2))) (mu (ix2 n (0 : Fin 2))) (mu (ix2 n (1 : Fin 2)))
    (cd (ix2 n (0 : Fin 2))) (co (ix2 n (0 : Fin 1))) (cd (ix2 n (1 : Fin 2))) (sc (ix2 n (0 : Fin 1))) (act (ix3 n h w))

/-- THE RESULT: the squared error summed over every field and every pixel. -/
def total (xy : SXY.Idx → EReal) (act : SAct.Idx → EReal) (mu cd : SPair.Idx → EReal) (co sc : SCol.Idx → EReal) : EReal :=
  ∑ n : Fin 512, ∑ h : Fin 256, ∑ w : Fin 256, sqErr xy act mu cd co sc n h w

/-- WHAT BOTH PROGRAMS RETURN: each starts its sum from the zero word, so the result is zero plus the total. -/
def answer (xy : SXY.Idx → EReal) (act : SAct.Idx → EReal) (mu cd : SPair.Idx → EReal) (co sc : SCol.Idx → EReal) : EReal :=
  Ideal.ofBits .f32 0x00000000#32 + total xy act mu cd co sc

/-! ## Summing tile by tile -/

/-- The field that tile `t` holds in its row `r`. -/
def tileField (t : Fin 128) (r : Fin 16) : Fin 512 :=
  ⟨16 * (t.val / 4) + r.val, by have := t.isLt; have := r.isLt; omega⟩

/-- The pixel row that tile `t` holds in its row `j`. -/
def tileRow (t : Fin 128) (j : Fin 64) : Fin 256 :=
  ⟨64 * (t.val % 4) + j.val, by have := t.isLt; have := j.isLt; omega⟩

/-- A field and a pixel row lie in exactly one tile, at one place in it. -/
def tileEquiv : Fin 128 × (Fin 16 × Fin 64) ≃ Fin 512 × Fin 256 where
  toFun p := (tileField p.1 p.2.1, tileRow p.1 p.2.2)
  invFun q := (⟨4 * (q.1.val / 16) + q.2.val / 64, by have := q.1.isLt; have := q.2.isLt; omega⟩,
    ⟨q.1.val % 16, Nat.mod_lt _ (by decide)⟩, ⟨q.2.val % 64, Nat.mod_lt _ (by decide)⟩)
  left_inv p := by
    obtain ⟨⟨t, ht⟩, ⟨r, hr⟩, ⟨j, hj⟩⟩ := p
    refine Prod.ext (Fin.ext ?_) (Prod.ext (Fin.ext ?_) (Fin.ext ?_))
    · show 4 * ((16 * (t / 4) + r) / 16) + (64 * (t % 4) + j) / 64 = t; omega
    · show (16 * (t / 4) + r) % 16 = r; omega
    · show (64 * (t % 4) + j) % 64 = j; omega
  right_inv q := by
    obtain ⟨⟨n, hn⟩, ⟨h, hh⟩⟩ := q
    refine Prod.ext (Fin.ext ?_) (Fin.ext ?_)
    · show 16 * ((4 * (n / 16) + h / 64) / 4) + n % 16 = n; omega
    · show 64 * ((4 * (n / 16) + h / 64) % 4) + h % 64 = h; omega

/-- The sum of the tiles' sums is the sum over every field and every pixel, in any commutative monoid. -/
theorem sum_tiles {M : Type*} [AddCommMonoid M] (f : Fin 512 → Fin 256 → Fin 256 → M) :
    ∑ t : Fin 128, ∑ r : Fin 16, ∑ j : Fin 64, ∑ k : Fin 256, f (tileField t r) (tileRow t j) k
      = ∑ n : Fin 512, ∑ h : Fin 256, ∑ k : Fin 256, f n h k :=
  calc ∑ t : Fin 128, ∑ r : Fin 16, ∑ j : Fin 64, ∑ k : Fin 256, f (tileField t r) (tileRow t j) k
      = ∑ t : Fin 128, ∑ rj : Fin 16 × Fin 64, ∑ k : Fin 256, f (tileField t rj.1) (tileRow t rj.2) k :=
        Finset.sum_congr rfl fun t _ =>
          (Fintype.sum_prod_type' (fun (r : Fin 16) (j : Fin 64) => ∑ k : Fin 256, f (tileField t r) (tileRow t j) k)).symm
    _ = ∑ p : Fin 128 × (Fin 16 × Fin 64), ∑ k : Fin 256, f (tileField p.1 p.2.1) (tileRow p.1 p.2.2) k :=
        (Fintype.sum_prod_type' (fun (t : Fin 128) (rj : Fin 16 × Fin 64) =>
          ∑ k : Fin 256, f (tileField t rj.1) (tileRow t rj.2) k)).symm
    _ = ∑ q : Fin 512 × Fin 256, ∑ k : Fin 256, f q.1 q.2 k :=
        Fintype.sum_equiv tileEquiv _ _ (fun _ => rfl)
    _ = ∑ n : Fin 512, ∑ h : Fin 256, ∑ k : Fin 256, f n h k :=
        Fintype.sum_prod_type' (fun (n : Fin 512) (h : Fin 256) => ∑ k : Fin 256, f n h k)

/-- A rank-3 index set is the product of its three coordinate ranges … -/
def idxEquiv3 {n0 n1 n2 : Nat} : (⟨3, ![n0, n1, n2]⟩ : Shape).Idx ≃ Fin n0 × (Fin n1 × Fin n2) where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.FieldError

end
-- ==== Proof.LibTileOps.lean ====
/-
  Vector operations of a tile read at an index, at the ideal instance, generic in the extents.

  * a shape cast between two shapes of one element, and a broadcast from a shape whose axes all have extent one,
    read the operand's only element;
  * a vector of length `a` cast to the column `[a, 1]` reads the vector at the row;
  * the sum of a `[a, b]` tile taken in two steps — along the lanes, then, after the cast to a column, along the
    rows — is the double sum over the rows and the lanes.
-/
import Idealize.ShloMosaic.Lib.Pipeline.Value
import Idealize.ShloMosaic.Lib.ValueIdx
import Idealize.ShloMosaic.PureOps.Ideal.Laws

noncomputable section

namespace Cert.LibTileOps

open Idealize.ShloMosaic Idealize.ShloMosaic.ValueIdx

variable {α : Type}

/-- A cast out of a shape with one element reads that element, whatever the two indices are called. -/
theorem shapeCast_one {s t : Shape} (x : s.Idx → α) (h : s.ShapeCasts t) (hs : s.numel = 1) (j : t.Idx) (k : s.Idx) :
    shapeCast t x h j = x k :=
  shapeCast_apply x h j k (by
    have h1 := (s.rowMajor k).isLt
    have h2 := (t.rowMajor j).isLt
    have h3 : t.numel = s.numel := h
    omega)

/-- A broadcast out of a shape whose axes all have extent one reads its one element everywhere. -/
theorem broadcastTo_one {s t : Shape} (x : s.Idx → α) (h : s.Broadcasts t) (hs : ∀ a, s.size a = 1) (j : t.Idx) (k : s.Idx) :
    broadcastTo t x h j = x k :=
  broadcastTo_apply x h j k (fun a => by
    rw [if_pos (hs a)]
    have h1 := (k a).isLt
    have h2 := hs a
    omega)

/-- A length-`a` vector cast to the column `[a, 1]`, read at row `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- The two-step sum of a tile: lanes first, then rows. -/
theorem tile_sum_apply {a b : ℕ} (x : FVec Ideal ⟨2, ![a, b]⟩ .f32)
    (h1 : (⟨2, ![a, b]⟩ : Shape).Reduces [1] ⟨1, ![a]⟩) (hφ1 : FKind.Formats .f32)
    (hacc1 : (0x00000000#32 : BitVec 32) = FKind.add.neutral .f32 hφ1)
    (hc : (⟨1, ![a]⟩ : Shape).ShapeCasts ⟨2, ![a, 1]⟩)
    (h0 : (⟨2, ![a, 1]⟩ : Shape).Reduces [0] ⟨1, ![1]⟩) (hφ0 : FKind.Formats .f32)
    (hacc0 : (0x00000000#32 : BitVec 32) = FKind.add.neutral .f32 hφ0)
    (j : (⟨1, ![1]⟩ : Shape).Idx) :
    multiReduction .add [0] ⟨1, ![1]⟩
        (shapeCast ⟨2, ![a, 1]⟩ (multiReduction .add [1] ⟨1, ![a]⟩ x 0x00000000#32 h1 hφ1 hacc1) hc)
        0x00000000#32 h0 hφ0 hacc0 j
      = ∑ r : Fin a, ∑ k : Fin b, x (ix2 r k) := by
  refine (Ideal.multiReduction_add_single _ _ h0 hφ0 hacc0 j).trans ?_
  show ∑ r : Fin a, _ = _
  refine Finset.sum_congr rfl fun r _ => ?_
  have e0 : h0.lift j r = ix2 r (0 : Fin 1) := funext fun c => Fin.ext (by
    match c with
    | ⟨0, _⟩ => rfl
    | ⟨1, _⟩ => show (j ⟨0, _⟩).val = 0; have hj : (j ⟨0, Nat.one_pos⟩).val < 1 := (j ⟨0, Nat.one_pos⟩).isLt; omega)
  rw [e0, shapeCast_col_apply]
  refine (Ideal.multiReduction_add_single x _ h1 hφ1 hacc1 (ix1 r)).trans ?_
  show ∑ k : Fin b, _ = _
  refine Finset.sum_congr rfl fun k _ => ?_
  exact congrArg x (funext fun c => Fin.ext (by
    match c with
    | ⟨0, _⟩ => rfl
    | ⟨1, _⟩ => rfl))

end Cert.LibTileOps

end
-- ==== Proof.TileValue.lean ====
/-
  One tile of the kernel, read at the ideal instance: what the body adds to its running sum at a grid point.

  The body holds 16 fields' parameters (centre and inverse-covariance diagonal as `[16, 2]`, off-diagonal and scale as
  `[16, 1]`), 64 rows of the pixels' `x` and `y` planes (`[64, 256]`) and the matching `[16, 64, 256]` block of recorded
  activity. It spreads every per-field column and both planes over the `[16, 64, 256]` tile, computes the squared error
  pointwise, sums it along the lanes, then along the rows, then along the fields, and adds that one number to the
  running sum it finds in its `[1, 1]` accumulator.

  Read at an index: a column spread over the tile is the column at the field's row; a plane spread over the tile is
  the plane at the pixel; the two unit-width slices of a `[16, 2]` block are its two columns; so the pointwise term at
  `(r, j, k)` is `FieldError.sqAt` of the nine numbers there, and the three reductions are the triple sum.
-/
import proofs.«129653_j78932908966357_2_alg».proof.Proof.Gen.KernelIdeal.Skeleton
import proofs.«129653_j78932908966357_2_alg».proof.Proof.FieldError
import proofs.«129653_j78932908966357_2_alg».proof.Proof.LibTileOps
import Idealize.ShloMosaic.Lib.Pipeline.Value
import Idealize.ShloMosaic.Lib.ValueIdx
import Idealize.ShloMosaic.PureOps.Ideal.Laws

noncomputable section

namespace Cert.KernelIdeal.TileValue

open Idealize.ShloMosaic Idealize.ShloMosaic.ValueIdx Cert.KernelIdeal Cert.KernelIdeal.Gen

/-! ## Layout operations of the tile, read at `(r, j, k)` -/

section Layout
variable {α : Type}

/-- A per-field column, given two trailing unit axes and spread over the tile, is the column at the field's row. -/
theorem spread_col (v : S16x1.Idx → α) (r : Fin 16) (j : Fin 64) (k : Fin 256) :
    broadcastTo S16x64x256 (shapeCast S16x1x1 v shapeCasts_S16x1_S16x1x1) broadcasts_S16x1x1_S16x64x256 (ix3 r j k)
      = v (ix2 r (0 : Fin 1)) := by
  refine (broadcastTo_apply _ broadcasts_S16x1x1_S16x64x256 (ix3 r j k) (ix3 r (0 : Fin 1) (0 : Fin 1)) (fun a => ?_)).trans ?_
  · match a with
    | ⟨0, _⟩ => show r.val = if (16 : Nat) = 1 then 0 else r.val; rw [if_neg (by decide)]
    | ⟨1, _⟩ => show 0 = if (1 : Nat) = 1 then 0 else j.val; rw [if_pos rfl]
    | ⟨2, _⟩ => show 0 = if (1 : Nat) = 1 then 0 else k.val; rw [if_pos rfl]
  · exact shapeCast_apply v shapeCasts_S16x1_S16x1x1 _ (ix2 r (0 : Fin 1)) (by
      rw [Shape.rowMajor_val_two, Shape.rowMajor_val_three]
      show r.val * 1 + 0 = (r.val * 1 + 0) * 1 + 0
      omega)

/-- A pixel plane, given a leading unit axis and spread over the tile's fields, is the plane at the pixel. -/
theorem spread_plane (v : S64x256.Idx → α) (r : Fin 16) (j : Fin 64) (k : Fin 256) :
    broadcastTo S16x64x256 (shapeCast S1x64x256 (shapeCast S64x256 v shapeCasts_S64x256_S64x256) shapeCasts_S64x256_S1x64x256)
        broadcasts_S1x64x256_S16x64x256 (ix3 r j k)
      = v (ix2 j k) := by
  rw [shapeCast_self]
  refine (broadcastTo_apply _ broadcasts_S1x64x256_S16x64x256 (ix3 r j k) (ix3 (0 : Fin 1) j k) (fun a => ?_)).trans ?_
  · match a with
    | ⟨0, _⟩ => show 0 = if (1 : Nat) = 1 then 0 else r.val; rw [if_pos rfl]
    | ⟨1, _⟩ => show j.val = if (64 : Nat) = 1 then 0 else j.val; rw [if_neg (by decide)]
    | ⟨2, _⟩ => show k.val = if (256 : Nat) = 1 then 0 else k.val; rw [if_neg (by decide)]
  · exact shapeCast_apply v shapeCasts_S64x256_S1x64x256 _ (ix2 j k) (by
      rw [Shape.rowMajor_val_two, Shape.rowMajor_val_three]
      show j.val * 256 + k.val = (0 * 64 + j.val) * 256 + k.val
      omega)

/-- The first unit-width slice of a `[16, 2]` block is its column 0. -/
theorem slice_col0 (v : S16x2.Idx → α) (r : Fin 16) :
    extractStridedSlice S16x1 ![0, 0] v slices_S16x2_o0_0_S16x1 (ix2 r (0 : Fin 1)) = v (ix2 r (0 : Fin 2)) :=
  extractStridedSlice_apply ![0, 0] v slices_S16x2_o0_0_S16x1 _ _ (fun a => match a with
    | ⟨0, _⟩ => by show r.val = 0 + r.val; omega
    | ⟨1, _⟩ => by show 0 = 0 + 0; rfl)

/-- The second is its column 1. -/
theorem slice_col1 (v : S16x2.Idx → α) (r : Fin 16) :
    extractStridedSlice S16x1 ![0, 1] v slices_S16x2_o0_1_S16x1 (ix2 r (0 : Fin 1)) = v (ix2 r (1 : Fin 2)) :=
  extractStridedSlice_apply ![0, 1] v slices_S16x2_o0_1_S16x1 _ _ (fun a => match a with
    | ⟨0, _⟩ => by show r.val = 0 + r.val; omega
    | ⟨1, _⟩ => by show 1 = 1 + 0; rfl)

end Layout

/-! ## The pointwise term -/

variable (mu cd : FVec Ideal S16x2 .f32) (co sc : FVec Ideal S16x1 .f32) (px py : FVec Ideal S64x256 .f32)
  (act : FVec Ideal S16x64x256 .f32)

/-- The offset `dy = y - my` over the tile. -/
theorem dy_apply (r : Fin 16) (j : Fin 64) (k : Fin 256) :
    k0_pay3 (F := Ideal) mu py (ix3 r j k) = py (ix2 j k) - mu (ix2 r (1 : Fin 2)) := by
  unfold k0_pay3
  simp only [subf_apply, spread_plane, spread_col, slice_col1]

/-- The per-field `c` and scale columns with their two unit axes, spread over the tile. -/
theorem c_apply (r : Fin 16) (j : Fin 64) (k : Fin 256) :
    broadcastTo S16x64x256 (k0_pay4 (F := Ideal) cd) broadcasts_S16x1x1_S16x64x256 (ix3 r j k) = cd (ix2 r (1 : Fin 2)) := by
  unfold k0_pay4
  simp only [spread_col, slice_col1]

theorem scale_apply (r : Fin 16) (j : Fin 64) (k : Fin 256) :
    broadcastTo S16x64x256 (k0_pay5 (F := Ideal) sc) broadcasts_S16x1x1_S16x64x256 (ix3 r j k) = sc (ix2 r (0 : Fin 1)) := by
  unfold k0_pay5
  simp only [spread_col]

/-- The first two terms of the quadratic form, `(dx dx) a + ((2 dx) dy) b`, over the tile. -/
theorem quad2_apply (r : Fin 16) (j : Fin 64) (k : Fin 256) :
    k0_pay6 (F := Ideal) mu cd co px py (ix3 r j k)
      = (px (ix2 j k) - mu (ix2 r (0 : Fin 2))) * (px (ix2 j k) - mu (ix2 r (0 : Fin 2))) * cd (ix2 r (0 : Fin 2))
        + FieldError.two * (px (ix2 j k) - mu (ix2 r (0 : Fin 2))) * (py (ix2 j k) - mu (ix2 r (1 : Fin 2))) * co (ix2 r (0 : Fin 1)) := by
  unfold k0_pay6
  simp only [addf_apply, mulf_apply, subf_apply, broadcast_apply, spread_plane, spread_col, slice_col0, dy_apply,
    Ideal.ofBits_def]

/-- The third, before its factor `c`: `dy dy`. -/
theorem dy2_apply (r : Fin 16) (j : Fin 64) (k : Fin 256) :
    k0_pay7 (F := Ideal) mu py (ix3 r j k)
      = (py (ix2 j k) - mu (ix2 r (1 : Fin 2))) * (py (ix2 j k) - mu (ix2 r (1 : Fin 2))) := by
  unfold k0_pay7
  simp only [mulf_apply, dy_apply]

/-- The exponential of a vector, read at an index. -/
theorem exp_apply {s : Shape} (a : FVec Ideal s .f32) (i : s.Idx) : exp a i = Ideal.exp (a i) := rfl

/-- The squared errors of the tile, as the body computes them before it sums. -/
def sqTile : FVec Ideal S16x64x256 .f32 :=
  mulf
    (subf (mulf (broadcastTo S16x64x256 (k0_pay5 (F := Ideal) sc) broadcasts_S16x1x1_S16x64x256)
      (exp (mulf (broadcast S16x64x256 (Scalar.ofBits .f32 0xBF000000#32))
        (addf (k0_pay6 (F := Ideal) mu cd co px py)
          (mulf (k0_pay7 (F := Ideal) mu py) (broadcastTo S16x64x256 (k0_pay4 (F := Ideal) cd) broadcasts_S16x1x1_S16x64x256)))))) act)
    (subf (mulf (broadcastTo S16x64x256 (k0_pay5 (F := Ideal) sc) broadcasts_S16x1x1_S16x64x256)
      (exp (mulf (broadcast S16x64x256 (Scalar.ofBits .f32 0xBF000000#32))
        (addf (k0_pay6 (F := Ideal) mu cd co px py)
          (mulf (k0_pay7 (F := Ideal) mu py) (broadcastTo S16x64x256 (k0_pay4 (F := Ideal) cd) broadcasts_S16x1x1_S16x64x256)))))) act)

/-- At `(r, j, k)` it is the squared error of the tile's field `r` at the tile's pixel `(j, k)`. -/
theorem sqTile_apply (r : Fin 16) (j : Fin 64) (k : Fin 256) :
    sqTile mu cd co sc px py act (ix3 r j k)
      = FieldError.sqAt (px (ix2 j k)) (py (ix2 j k)) (mu (ix2 r (0 : Fin 2))) (mu (ix2 r (1 : Fin 2)))
          (cd (ix2 r (0 : Fin 2))) (co (ix2 r (0 : Fin 1))) (cd (ix2 r (1 : Fin 2))) (sc (ix2 r (0 : Fin 1))) (act (ix3 r j k)) := by
  unfold sqTile FieldError.sqAt
  simp only [mulf_apply, subf_apply, addf_apply, exp_apply, broadcast_apply, scale_apply, c_apply, quad2_apply, dy2_apply,
    Ideal.ofBits_def]

/-! ## The three reductions and the accumulator -/

/-- The sum of a `[16, 64, 256]` tile taken along the lanes, then the rows, then the fields, is the triple sum. -/
theorem tile_total (x : FVec Ideal S16x64x256 .f32) (u : S1.Idx) :
    multiReduction .add [0] S1
        (shapeCast S16x1 (multiReduction .add [1] S16
          (multiReduction .add [2] S16x64 x 0x00000000#32 reduces_S16x64x256_S16x64 (.inl rfl) rfl)
          0x00000000#32 reduces_S16x64_S16 (.inl rfl) rfl) shapeCasts_S16_S16x1)
        0x00000000#32 reduces_S16x1_S1 (.inl rfl) rfl u
      = ∑ r : Fin 16, ∑ j : Fin 64, ∑ k : Fin 256, x (ix3 r j k) := by
  refine (Cert.LibTileOps.tile_sum_apply (a := 16) (b := 64) _ reduces_S16x64_S16 (.inl rfl) rfl shapeCasts_S16_S16x1
    reduces_S16x1_S1 (.inl rfl) rfl u).trans ?_
  refine Finset.sum_congr rfl fun r _ => Finset.sum_congr rfl fun j _ => ?_
  refine (Ideal.multiReduction_add_single x 0x00000000#32 reduces_S16x64x256_S16x64 (.inl rfl) rfl (ix2 r j)).trans ?_
  show ∑ k : Fin 256, _ = _
  refine Finset.sum_congr rfl fun k _ => congrArg x (funext fun c => Fin.ext ?_)
  match c with
  | ⟨0, _⟩ => rfl
  | ⟨1, _⟩ => rfl
  | ⟨2, _⟩ => rfl

/-- The squared errors of one tile, summed: a function of the tile's seven blocks. -/
def tileSum : EReal :=
  ∑ r : Fin 16, ∑ j : Fin 64, ∑ k : Fin 256,
    FieldError.sqAt (px (ix2 j k)) (py (ix2 j k)) (mu (ix2 r (0 : Fin 2))) (mu (ix2 r (1 : Fin 2)))
      (cd (ix2 r (0 : Fin 2))) (co (ix2 r (0 : Fin 1))) (cd (ix2 r (1 : Fin 2))) (sc (ix2 r (0 : Fin 1))) (act (ix3 r j k))

/-- WHAT THE BODY STORES into its accumulator at a grid point: what it found there plus the tile's squared errors. -/
theorem stored_apply (acc : FVec Ideal S1x1 .f32) (y : S1x1.Idx) :
    k0_pay1 (F := Ideal) (k0_pay4 cd) (k0_pay5 sc) (k0_pay6 mu cd co px py) (k0_pay7 mu py) act acc y
      = acc y + tileSum mu cd co sc px py act := by
  unfold k0_pay1 tileSum
  rw [shapeCast_self]
  show acc y + shapeCast S1x1 _ shapeCasts_S1_S1x1 y = _
  refine congrArg (acc y + ·) ?_
  refine (Cert.LibTileOps.shapeCast_one _ shapeCasts_S1_S1x1 rfl y (ix1 (0 : Fin 1))).trans ?_
  refine (tile_total (sqTile mu cd co sc px py act) (ix1 (0 : Fin 1))).trans ?_
  exact Finset.sum_congr rfl fun r _ => Finset.sum_congr rfl fun j _ => Finset.sum_congr rfl fun k _ =>
    sqTile_apply mu cd co sc px py act r j k

end Cert.KernelIdeal.TileValue

end
-- ==== Proof.Accum.lean ====
/-
  The running sum over the grid.

  The body keeps one number, in a `[1, 1]` accumulator that lives from grid point to grid point: it clears it at the
  first point, adds the point's tile to it at every point, and copies it into the output block at the last point. So
  after point `n` the accumulator holds zero plus the sums of the tiles `0 … n`, by induction on the point, and the output
  block written back at the last point holds zero plus the sums of all 128 tiles.
-/
import proofs.«129653_j78932908966357_2_alg».proof.Proof.Gen.KernelIdeal.Frame
import proofs.«129653_j78932908966357_2_alg».proof.Proof.Found
import proofs.«129653_j78932908966357_2_alg».proof.Proof.TileValue

noncomputable section

namespace Cert.KernelIdeal.Accum

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The squared errors of the tile at grid point `t`, summed: of the seven blocks the point's windows hold. -/
def tileAt (c : Dev nD) (t : Fin cfg0.N) : EReal :=
  TileValue.tileSum (iblk m c 0 t) (iblk m c 1 t) (iblk m c 2 t) (iblk m c 3 t) (iblk m c 4 t) (iblk m c 5 t) (iblk m c 6 t)

/-- What the body stores at point `t` over an accumulator holding `acc`. -/
theorem stored_at (c : Dev nD) (t : Fin cfg0.N) (acc : Vec Ideal S1x1 .f32) (y : S1x1.Idx) :
    Found.stored (iblk m c 0 t) (iblk m c 1 t) (iblk m c 2 t) (iblk m c 3 t) (iblk m c 4 t) (iblk m c 5 t) (iblk m c 6 t) acc y
      = acc y + tileAt m c t :=
  TileValue.stored_apply (iblk m c 0 t) (iblk m c 1 t) (iblk m c 2 t) (iblk m c 3 t) (iblk m c 4 t) (iblk m c 5 t)
    (iblk m c 6 t) acc y

/-- The cleared accumulator holds the zero word. -/
theorem cleared_apply (y : S1x1.Idx) : Found.cleared (F := Ideal) y = Ideal.ofBits .f32 0x00000000#32 := by
  show k0_pay2 (F := Ideal) y = _
  unfold k0_pay2
  rw [shapeCast_self]
  rfl

/-- Tile `n`'s sum, and zero past the last tile. -/
def tileN (c : Dev nD) (n : ℕ) : EReal := if h : n < cfg0.N then tileAt m c ⟨n, h⟩ else 0

/-- The accumulator after point `n`: zero plus the sums of the tiles `0 … n`. -/
def running (c : Dev nD) (n : ℕ) : EReal :=
  Ideal.ofBits .f32 0x00000000#32 + ∑ t ∈ Finset.range (n + 1), tileN m c t

theorem running_zero (c : Dev nD) (h : 0 < cfg0.N) :
    Ideal.ofBits .f32 0x00000000#32 + tileAt m c ⟨0, h⟩ = running m c 0 := by
  unfold running
  rw [Finset.sum_range_one]
  unfold tileN
  rw [dif_pos h]

theorem running_succ (c : Dev nD) (n : ℕ) (h : n + 1 < cfg0.N) :
    running m c n + tileAt m c ⟨n + 1, h⟩ = running m c (n + 1) := by
  unfold running
  rw [Finset.sum_range_succ _ (n + 1), ← add_assoc]
  congr 1
  unfold tileN
  rw [dif_pos h]

/-- THE INVARIANT: after point `n` the accumulator holds the running sum. -/
theorem acc_after (c : Dev nD) : ∀ (n : ℕ) (h : n < cfg0.N), (outsAt0 m c n h).2 = fun _ => running m c n
  | 0, h => by
    rw [outsAt0_A m c ⟨0, h⟩ (Nat.zero_mod _) (by show ¬(0 % 128 = 127); decide)]
    dsimp only
    rw [Found.acc_A]
    funext y
    refine (stored_at m c ⟨0, h⟩ Found.cleared y).trans ?_
    rw [cleared_apply]
    exact running_zero m c h
  | n + 1, h => by
    have hN : cfg0.N = 128 := N_0
    have h0 : ¬(⟨n + 1, h⟩ : Fin cfg0.N).val % 128 = 0 := by dsimp only; omega
    have step : ∀ y : S1x1.Idx,
        (outsAt0 m c n (Nat.lt_of_succ_lt h)).2 y + tileAt m c ⟨n + 1, h⟩ = running m c (n + 1) := fun y => by
      rw [acc_after c n (Nat.lt_of_succ_lt h)]
      exact running_succ m c n h
    by_cases h1 : (⟨n + 1, h⟩ : Fin cfg0.N).val % 128 = 127
    · rw [outsAt0_C m c ⟨n + 1, h⟩ h0 h1]
      dsimp only
      rw [Found.acc_C]
      funext y
      exact (stored_at m c ⟨n + 1, h⟩ (outsAt0 m c n (Nat.lt_of_succ_lt h)).2 y).trans (step y)
    · rw [outsAt0_B m c ⟨n + 1, h⟩ h0 h1]
      dsimp only
      rw [Found.acc_B]
      funext y
      exact (stored_at m c ⟨n + 1, h⟩ (outsAt0 m c n (Nat.lt_of_succ_lt h)).2 y).trans (step y)

/-- At the last point the output block is left holding the running sum too. -/
theorem out_last (c : Dev nD) (t : Fin cfg0.N) (h1 : t.val % 128 = 127) :
    (outsAt0 m c t.val t.isLt).1 = fun _ => running m c t.val := by
  obtain ⟨n, h⟩ := t
  cases n with
  | zero => exact absurd h1 (by show ¬(0 % 128 = 127); decide)
  | succ n =>
    have hN : cfg0.N = 128 := N_0
    have h0 : ¬(⟨n + 1, h⟩ : Fin cfg0.N).val % 128 = 0 := by dsimp only; omega
    rw [outsAt0_C m c ⟨n + 1, h⟩ h0 h1]
    dsimp only
    rw [Found.out_C]
    funext y
    refine (stored_at m c ⟨n + 1, h⟩ (outsAt0 m c n (Nat.lt_of_succ_lt h)).2 y).trans ?_
    rw [acc_after m c n (Nat.lt_of_succ_lt h)]
    exact running_succ m c n h

/-- The running sum of the first `n + 1` of `N` terms is, at `n + 1 = N`, the sum of all of them. -/
theorem sum_range_fin {M : Type*} [AddCommMonoid M] {N : ℕ} (g : Fin N → M) :
    ∑ t ∈ Finset.range N, (if h : t < N then g ⟨t, h⟩ else 0) = ∑ t : Fin N, g t := by
  rw [Finset.sum_range]
  exact Finset.sum_congr rfl fun t _ => dif_pos t.isLt

/-- After the last point: zero plus the sums of all the tiles. -/
theorem running_last (c : Dev nD) :
    running m c 127 = Ideal.ofBits .f32 0x00000000#32 + ∑ t : Fin cfg0.N, tileAt m c t := by
  unfold running
  have hN : cfg0.N = 127 + 1 := N_0
  rw [← hN]
  exact congrArg (fun x : EReal => Ideal.ofBits .f32 0x00000000#32 + x) (sum_range_fin (tileAt m c))

end Cert.KernelIdeal.Accum

end
-- ==== Proof.BlockReads.lean ====
/-
  What the windows' blocks hold, and so what a tile is in terms of the argument arrays.

  At grid point `t` — the pair `(t / 4, t % 4)` of a field tile and a pixel-row tile — the four per-field windows hold
  the rows `16 * (t / 4) + r` of the centres, the covariance diagonals, the off-diagonals and the scales; the two plane
  windows hold the rows `64 * (t % 4) + j` of the pixels' `x` and `y` planes; the activity window holds those fields at
  those rows, all 256 columns. The two planes are written before the region: each is a unit-width slice of the
  `[256, 256, 2]` coordinate array along its last axis with that axis dropped, so plane `x` at `(h, w)` is the array at
  `(h, w, 0)` and plane `y` at `(h, w)` is the array at `(h, w, 1)`.

  So the tile at point `t` sums the specification's squared errors over the fields and pixel rows the tile holds, and
  the 128 tiles together sum them over every field and every pixel.
-/
import proofs.«129653_j78932908966357_2_alg».proof.Proof.Gen.KernelIdeal.Frame
import proofs.«129653_j78932908966357_2_alg».proof.Proof.FieldError
import proofs.«129653_j78932908966357_2_alg».proof.Proof.Accum
import Idealize.ShloMosaic.Lib.Pipeline.Value
import Idealize.ShloMosaic.Lib.ValueIdx
import Idealize.ShloMosaic.Lib.StableHlo.Run

noncomputable section

namespace Cert.KernelIdeal.BlockReads

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The printed index maps, decided once over the grid: the per-field windows move with `t / 4`, the plane windows
    with `t % 4`, the activity window with both, and the output window stays. -/
theorem idx_facts : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 0)
    ∧ (win0_3.index t (0 : Fin 2) = t.val / 4 ∧ win0_3.index t (1 : Fin 2) = 0)
    ∧ (win0_4.index t (0 : Fin 2) = t.val % 4 ∧ win0_4.index t (1 : Fin 2) = 0)
    ∧ (win0_5.index t (0 : Fin 2) = t.val % 4 ∧ win0_5.index t (1 : Fin 2) = 0)
    ∧ (win0_6.index t (0 : Fin 3) = t.val / 4 ∧ win0_6.index t (1 : Fin 3) = t.val % 4 ∧ win0_6.index t (2 : Fin 3) = 0)
    ∧ (win0_7.index t (0 : Fin 2) = 0 ∧ win0_7.index t (1 : Fin 2) = 0) :=
  (by decide +kernel : ∀ t : Fin grid0.N, _)

/-- The field in row `r` of the tile at point `t`, and the pixel row in its row `j`. -/
abbrev fieldOf (t : Fin cfg0.N) (r : Fin 16) : Fin 512 := FieldError.tileField (Fin.cast (show cfg0.N = 128 from N_0) t) r
abbrev rowOf (t : Fin cfg0.N) (j : Fin 64) : Fin 256 := FieldError.tileRow (Fin.cast (show cfg0.N = 128 from N_0) t) j

/-! ## The coordinate planes the region finds -/

/-- The `x` plane is the slice `[:, :, 0:1]` of the coordinates with its unit axis dropped. -/
theorem plane_x (c : Dev nD) :
    V m c main_v1 = shapeCast S256x256 (extractStridedSlice S256x256x1 ![0, 0, 0]
      (m ((c : Thread nD τ).loc main_arg0)) slices_S256x256x2_S256x256x1_0_0_0) shapeCasts_S256x256x1_S256x256 := by
  show StableHlo.after hostOps0 (fun b => m (c, b)) (Proc.devRef .tc main_v1) = _
  after_results
  rfl

/-- The `y` plane is the slice `[:, :, 1:2]` likewise. -/
theorem plane_y (c : Dev nD) :
    V m c main_v3 = shapeCast S256x256 (extractStridedSlice S256x256x1 ![0, 0, 1]
      (m ((c : Thread nD τ).loc main_arg0)) slices_S256x256x2_S256x256x1_0_0_1) shapeCasts_S256x256x1_S256x256 := by
  show StableHlo.after hostOps0 (fun b => m (c, b)) (Proc.devRef .tc main_v3) = _
  after_results
  rfl

/-- A unit-width slice of the coordinates along the last axis, that axis dropped, read at a pixel. -/
theorem plane_apply {α : Type} (xy : S256x256x2.Idx → α) (o : Fin 2) (hs : S256x256x2.Slices ![0, 0, o.val] S256x256x1)
    (h w : Fin 256) :
    shapeCast S256x256 (extractStridedSlice S256x256x1 ![0, 0, o.val] xy hs) shapeCasts_S256x256x1_S256x256 (ix2 h w)
      = xy (ix3 h w o) := by
  refine (shapeCast_apply _ shapeCasts_S256x256x1_S256x256 (ix2 h w) (ix3 h w (0 : Fin 1)) ?_).trans
    (extractStridedSlice_apply ![0, 0, o.val] xy hs (ix3 h w (0 : Fin 1)) (ix3 h w o) fun a => ?_)
  · rw [Shape.rowMajor_val_three, Shape.rowMajor_val_two]
    show (h.val * 256 + w.val) * 1 + 0 = h.val * 256 + w.val
    omega
  · match a with
    | ⟨0, _⟩ => show h.val = 0 + h.val; omega
    | ⟨1, _⟩ => show w.val = 0 + w.val; omega
    | ⟨2, _⟩ => show o.val = o.val + 0; omega

theorem plane_x_apply (c : Dev nD) (h w : Fin 256) :
    V m c main_v1 (ix2 h w) = m ((c : Thread nD τ).loc main_arg0) (ix3 h w (0 : Fin 2)) := by
  rw [plane_x]
  exact plane_apply _ (0 : Fin 2) slices_S256x256x2_S256x256x1_0_0_0 h w

theorem plane_y_apply (c : Dev nD) (h w : Fin 256) :
    V m c main_v3 (ix2 h w) = m ((c : Thread nD τ).loc main_arg0) (ix3 h w (1 : Fin 2)) := by
  rw [plane_y]
  exact plane_apply _ (1 : Fin 2) slices_S256x256x2_S256x256x1_0_0_1 h w

/-! ## The seven blocks at a point -/

/-- The centres' block holds the tile's fields' rows of the centres. -/
theorem centres_blk (c : Dev nD) (t : Fin cfg0.N) (r : Fin 16) (a : Fin 2) :
    (iblk m c 0 t : Vec Ideal S16x2 .f32) (ix2 r a) = m ((c : Thread nD τ).loc main_arg2) (ix2 (fieldOf t r) a) := by
  obtain ⟨⟨e0, e1⟩, -⟩ := idx_facts t
  refine Eq.trans ?_ (congrFun (V_main_arg2 m c) (ix2 (fieldOf t r) a))
  show V m c main_arg2 (((cfg0.win 0).blk t).view.emb (ix2 r a)) = V m c main_arg2 (ix2 (fieldOf t r) a)
  refine congrArg (V m c main_arg2) (funext fun b => Fin.ext ?_)
  match b with
  | ⟨0, _⟩ => show win0_0.index t (0 : Fin 2) * 16 + 1 * r.val = 16 * (t.val / 4) + r.val; rw [e0]; omega
  | ⟨1, _⟩ => show win0_0.index t (1 : Fin 2) * 2 + 1 * a.val = a.val; rw [e1]; omega

/-- The covariance diagonals' block likewise. -/
theorem diag_blk (c : Dev nD) (t : Fin cfg0.N) (r : Fin 16) (a : Fin 2) :
    (iblk m c 1 t : Vec Ideal S16x2 .f32) (ix2 r a) = m ((c : Thread nD τ).loc main_arg3) (ix2 (fieldOf t r) a) := by
  obtain ⟨-, ⟨e0, e1⟩, -⟩ := idx_facts t
  refine Eq.trans ?_ (congrFun (V_main_arg3 m c) (ix2 (fieldOf t r) a))
  show V m c main_arg3 (((cfg0.win 1).blk t).view.emb (ix2 r a)) = V m c main_arg3 (ix2 (fieldOf t r) a)
  refine congrArg (V m c main_arg3) (funext fun b => Fin.ext ?_)
  match b with
  | ⟨0, _⟩ => show win0_1.index t (0 : Fin 2) * 16 + 1 * r.val = 16 * (t.val / 4) + r.val; rw [e0]; omega
  | ⟨1, _⟩ => show win0_1.index t (1 : Fin 2) * 2 + 1 * a.val = a.val; rw [e1]; omega

/-- The off-diagonals' block. -/
theorem offdiag_blk (c : Dev nD) (t : Fin cfg0.N) (r : Fin 16) :
    (iblk m c 2 t : Vec Ideal S16x1 .f32) (ix2 r (0 : Fin 1))
      = m ((c : Thread nD τ).loc main_arg4) (ix2 (fieldOf t r) (0 : Fin 1)) := by
  obtain ⟨-, -, ⟨e0, e1⟩, -⟩ := idx_facts t
  refine Eq.trans ?_ (congrFun (V_main_arg4 m c) (ix2 (fieldOf t r) (0 : Fin 1)))
  show V m c main_arg4 (((cfg0.win 2).blk t).view.emb (ix2 r (0 : Fin 1))) = V m c main_arg4 (ix2 (fieldOf t r) (0 : Fin 1))
  refine congrArg (V m c main_arg4) (funext fun b => Fin.ext ?_)
  match b with
  | ⟨0, _⟩ => show win0_2.index t (0 : Fin 2) * 16 + 1 * r.val = 16 * (t.val / 4) + r.val; rw [e0]; omega
  | ⟨1, _⟩ => show win0_2.index t (1 : Fin 2) * 1 + 1 * 0 = 0; rw [e1]

/-- The scales' block. -/
theorem scale_blk (c : Dev nD) (t : Fin cfg0.N) (r : Fin 16) :
    (iblk m c 3 t : Vec Ideal S16x1 .f32) (ix2 r (0 : Fin 1))
      = m ((c : Thread nD τ).loc main_arg5) (ix2 (fieldOf t r) (0 : Fin 1)) := by
  obtain ⟨-, -, -, ⟨e0, e1⟩, -⟩ := idx_facts t
  refine Eq.trans ?_ (congrFun (V_main_arg5 m c) (ix2 (fieldOf t r) (0 : Fin 1)))
  show V m c main_arg5 (((cfg0.win 3).blk t).view.emb (ix2 r (0 : Fin 1))) = V m c main_arg5 (ix2 (fieldOf t r) (0 : Fin 1))
  refine congrArg (V m c main_arg5) (funext fun b => Fin.ext ?_)
  match b with
  | ⟨0, _⟩ => show win0_3.index t (0 : Fin 2) * 16 + 1 * r.val = 16 * (t.val / 4) + r.val; rw [e0]; omega
  | ⟨1, _⟩ => show win0_3.index t (1 : Fin 2) * 1 + 1 * 0 = 0; rw [e1]

/-- The `x` plane's block holds the tile's pixel rows of `x`. -/
theorem x_blk (c : Dev nD) (t : Fin cfg0.N) (j : Fin 64) (k : Fin 256) :
    (iblk m c 4 t : Vec Ideal S64x256 .f32) (ix2 j k)
      = m ((c : Thread nD τ).loc main_arg0) (ix3 (rowOf t j) k (0 : Fin 2)) := by
  obtain ⟨-, -, -, -, ⟨e0, e1⟩, -⟩ := idx_facts t
  refine Eq.trans ?_ (plane_x_apply m c (rowOf t j) k)
  show V m c main_v1 (((cfg0.win 4).blk t).view.emb (ix2 j k)) = V m c main_v1 (ix2 (rowOf t j) k)
  refine congrArg (V m c main_v1) (funext fun b => Fin.ext ?_)
  match b with
  | ⟨0, _⟩ => show win0_4.index t (0 : Fin 2) * 64 + 1 * j.val = 64 * (t.val % 4) + j.val; rw [e0]; omega
  | ⟨1, _⟩ => show win0_4.index t (1 : Fin 2) * 256 + 1 * k.val = k.val; rw [e1]; omega

/-- The `y` plane's block likewise. -/
theorem y_blk (c : Dev nD) (t : Fin cfg0.N) (j : Fin 64) (k : Fin 256) :
    (iblk m c 5 t : Vec Ideal S64x256 .f32) (ix2 j k)
      = m ((c : Thread nD τ).loc main_arg0) (ix3 (rowOf t j) k (1 : Fin 2)) := by
  obtain ⟨-, -, -, -, -, ⟨e0, e1⟩, -⟩ := idx_facts t
  refine Eq.trans ?_ (plane_y_apply m c (rowOf t j) k)
  show V m c main_v3 (((cfg0.win 5).blk t).view.emb (ix2 j k)) = V m c main_v3 (ix2 (rowOf t j) k)
  refine congrArg (V m c main_v3) (funext fun b => Fin.ext ?_)
  match b with
  | ⟨0, _⟩ => show win0_5.index t (0 : Fin 2) * 64 + 1 * j.val = 64 * (t.val % 4) + j.val; rw [e0]; omega
  | ⟨1, _⟩ => show win0_5.index t (1 : Fin 2) * 256 + 1 * k.val = k.val; rw [e1]; omega

/-- The activity's block holds the tile's fields at the tile's pixel rows. -/
theorem act_blk (c : Dev nD) (t : Fin cfg0.N) (r : Fin 16) (j : Fin 64) (k : Fin 256) :
    (iblk m c 6 t : Vec Ideal S16x64x256 .f32) (ix3 r j k)
      = m ((c : Thread nD τ).loc main_arg1) (ix3 (fieldOf t r) (rowOf t j) k) := by
  obtain ⟨-, -, -, -, -, -, ⟨e0, e1, e2⟩, -⟩ := idx_facts t
  refine Eq.trans ?_ (congrFun (V_main_arg1 m c) (ix3 (fieldOf t r) (rowOf t j) k))
  show V m c main_arg1 (((cfg0.win 6).blk t).view.emb (ix3 r j k)) = V m c main_arg1 (ix3 (fieldOf t r) (rowOf t j) k)
  refine congrArg (V m c main_arg1) (funext fun b => Fin.ext ?_)
  match b with
  | ⟨0, _⟩ => show win0_6.index t (0 : Fin 3) * 16 + 1 * r.val = 16 * (t.val / 4) + r.val; rw [e0]; omega
  | ⟨1, _⟩ => show win0_6.index t (1 : Fin 3) * 64 + 1 * j.val = 64 * (t.val % 4) + j.val; rw [e1]; omega
  | ⟨2, _⟩ => show win0_6.index t (2 : Fin 3) * 256 + 1 * k.val = k.val; rw [e2]; omega

/-! ## A tile, and all of them -/

/-- The tile at point `t` sums the squared errors of the fields and pixel rows it holds. -/
theorem tileAt_eq (c : Dev nD) (t : Fin cfg0.N) :
    Accum.tileAt m c t = ∑ r : Fin 16, ∑ j : Fin 64, ∑ k : Fin 256,
      FieldError.sqErr (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) (fieldOf t r) (rowOf t j) k := by
  unfold Accum.tileAt TileValue.tileSum FieldError.sqErr
  refine Finset.sum_congr rfl fun r _ => Finset.sum_congr rfl fun j _ => Finset.sum_congr rfl fun k _ => ?_
  rw [x_blk m c t j k, y_blk m c t j k, centres_blk m c t r 0, centres_blk m c t r 1, diag_blk m c t r 0,
    diag_blk m c t r 1, offdiag_blk m c t r, scale_blk m c t r, act_blk m c t r j k]

/-- THE 128 TILES TOGETHER sum the squared errors over every field and every pixel. -/
theorem tiles_total (c : Dev nD) :
    ∑ t : Fin cfg0.N, Accum.tileAt m c t
      = FieldError.total (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold FieldError.total
  rw [← FieldError.sum_tiles]
  exact Fintype.sum_equiv (finCongr (show cfg0.N = 128 from N_0)) _ _ (fun t => tileAt_eq m c t)

end Cert.KernelIdeal.BlockReads

end
-- ==== Proof.Result.lean ====
/-
  The kernel's result.

  The output window's `[1, 1]` array is written back once, after the last grid point, with the accumulator's final
  contents; that one block is the whole array. After the region the program drops the two unit axes, so its scalar
  result is that number: zero plus the sums of all 128 tiles, which together are the squared error summed over every
  field and every pixel.
-/
import proofs.«129653_j78932908966357_2_alg».proof.Proof.Gen.KernelIdeal.Frame
import proofs.«129653_j78932908966357_2_alg».proof.Proof.Accum
import proofs.«129653_j78932908966357_2_alg».proof.Proof.BlockReads
import proofs.«129653_j78932908966357_2_alg».proof.Proof.LibTileOps
import Idealize.ShloMosaic.Lib.Pipeline.Value
import Idealize.ShloMosaic.Lib.StableHlo.Run

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The number the kernel computes: the accumulator after the last point. -/
def value (c : Dev nD) : EReal := Accum.running m c 127

/-- It is the specification's value of the argument arrays. -/
theorem value_eq (c : Dev nD) :
    value m c = FieldError.answer (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  unfold value FieldError.answer
  rw [Accum.running_last, BlockReads.tiles_total]

/-- The one write-back, after the last point, writes that number. -/
theorem flushed_eq (c : Dev nD) (t : Fin cfg0.N) (hf : (cfg0.win 7).flush t = true) :
    (dats m 0 c).flushed 7 t = ((cfg0.win 7).blk t).view.read (Elt Ideal) (fun _ => value m c) := by
  have h127 : t.val % 128 = 127 := (flush0_7 t).mp hf
  have hN : cfg0.N = 128 := N_0
  have ht : t.val = 127 := by have := t.isLt; omega
  show (cfg0.win 7).cut (grid0.coords t) ((dats m 0 c).after 7 t) = _
  rw [after0_7, Accum.out_last m c t h127]
  funext j
  show Accum.running m c t.val = Accum.running m c 127
  rw [ht]

/-- An index of the result array is in point `t`'s block iff each coordinate is in the block's range on its axis. -/
theorem mem_blk (t : Fin cfg0.N) (i : S1x1.Idx) :
    i ∈ ((cfg0.win 7).blk t).view.set
      ↔ ∀ a : Fin 2, win0_7.index t a * S1x1.size a ≤ (i a).val ∧ (i a).val < win0_7.index t a * S1x1.size a + S1x1.size a := by
  show i ∈ ((View.whole main_v4).slice (win0_7.rect t)).set ↔ _
  rw [View.set_slice_whole, Rect.mem_set_unit]
  exact Iff.rfl

/-- So the result array ends holding that number. -/
theorem final (c : Dev nD) : (dats m 0 c).arrAt 7 cfg0.N = fun _ => value m c :=
  (dats m 0 c).arrAt_eq_of_cover 7 (fun _ => value m c) (flushed_eq m c) fun i => by
    have hN : cfg0.N = 128 := N_0
    refine ⟨⟨127, by omega⟩, (flush0_7 _).mpr rfl, ?_⟩
    rw [mem_blk]
    obtain ⟨-, -, -, -, -, -, -, ⟨e0, e1⟩⟩ := BlockReads.idx_facts (⟨127, by omega⟩ : Fin cfg0.N)
    intro a
    match a with
    | ⟨0, _⟩ =>
      show win0_7.index ⟨127, _⟩ (0 : Fin 2) * 1 ≤ (i 0).val ∧ (i 0).val < win0_7.index ⟨127, _⟩ (0 : Fin 2) * 1 + 1
      have h0 : (i 0).val < 1 := (i 0).isLt
      rw [e0]; omega
    | ⟨1, _⟩ =>
      show win0_7.index ⟨127, _⟩ (1 : Fin 2) * 1 ≤ (i 1).val ∧ (i 1).val < win0_7.index ⟨127, _⟩ (1 : Fin 2) * 1 + 1
      have h1 : (i 1).val < 1 := (i 1).isLt
      rw [e1]; omega

/-- The program's scalar result, after the host drops the two unit axes. -/
theorem tail_eq (c : Dev nD) :
    Pipeline.afterTail₀ cfgs (dats m) 0 (V0 m) [hostOps1] c main_v5 = fun _ => value m c := by
  unfold Pipeline.afterTail₀
  show StableHlo.after hostOps1 _ (Proc.devRef .tc main_v5) = _
  after_results
  funext i
  have e : Pipeline.withArrays spec0 c (V0 m c) (fun w => (dats m 0 c).arrAt w cfg0.N)
      (Proc.devRef .tc (Pipeline.arrRef spec0 7)) = fun _ => value m c :=
    (Pipeline.withArrays_arr spec0 launch0.win.arr_inj c (V0 m c) (fun w => (dats m 0 c).arrAt w cfg0.N) 7).trans (final m c)
  show shapeCast S_ (Pipeline.withArrays spec0 c (V0 m c) (fun w => (dats m 0 c).arrAt w cfg0.N)
      (Proc.devRef .tc (Pipeline.arrRef spec0 7))) shapeCasts_S1x1_S_ i = value m c
  refine (Cert.LibTileOps.shapeCast_one _ shapeCasts_S1x1_S_ rfl i (ix2 (0 : Fin 1) (0 : Fin 1))).trans ?_
  exact congrFun e (ix2 (0 : Fin 1) (0 : Fin 1))

/-- The specification's value of the argument arrays on core `c`. -/
def answerOf (c : Dev nD) : EReal :=
  FieldError.answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- THE KERNEL'S RUN, READ: every weakly fair execution ends with the scalar result at the specification's value of the
    arguments and the arguments as they were. -/
theorem run : θ_run defs (onTc (τ := τ) (main (F := Ideal))) ⟨m, fun _ => 0, ρ⟩ fun r => ∀ c : Dev nD,
      r.2.mem ((c : Thread nD τ).loc main_v5) = (fun _ => answerOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v5 (Pipeline.mem_restRefs_of main_v5 (by decide) (by decide))).trans
        ((tail_eq m c).trans (funext fun _ => value_eq m c)),
      ((h c).2 main_arg0 (Pipeline.mem_restRefs_of main_arg0 (by decide) (by decide))).trans (W_main_arg0 m (dats m) c),
      ((h c).1 6).trans (((dats m 0 c).arrAt_in 6 rfl _).trans ((A_eq m c 6).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.Result

end
-- ==== Proof.RefValue.lean ====
/-
  The reference, read at the ideal instance: its result is zero plus the squared error summed over every field and
  every pixel.

  The reference lays the pixels out in one axis of 65536: it regroups the `[256, 256, 2]` coordinates as `[65536, 2]`,
  so pixel `(h, w)` is at `p = 256 h + w`; computes every field's prediction as a `[512, 65536]` array; regroups that as
  `[512, 256, 256]`, which puts `(n, p)` back at `(n, h, w)`; subtracts the recorded activity, squares, and sums the whole
  array from zero. Read at an index through the generated stage lemmas, the offsets are `x - mx` and `y - my` at the
  pixel and the field, the prediction and the square are the specification's, and the sum over the rank-3 index set is
  the triple sum over its coordinates.
-/
import proofs.«129653_j78932908966357_2_alg».proof.Proof.Gen.ReferenceIdeal.Read
import proofs.«129653_j78932908966357_2_alg».proof.Proof.FieldError
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

variable (x0 : (⟨S256x256x2, .f32⟩ : BufTy).Contents (Elt Ideal)) (x1 : (⟨S512x256x256, .f32⟩ : BufTy).Contents (Elt Ideal))
  (x2 x3 : (⟨S512x2, .f32⟩ : BufTy).Contents (Elt Ideal)) (x4 x5 : (⟨S512x1, .f32⟩ : BufTy).Contents (Elt Ideal))

/-- Pixel `(h, w)` in the reference's one axis of pixels. -/
def pix (h w : Fin 256) : Fin 65536 := ⟨h.val * 256 + w.val, by have := h.isLt; have := w.isLt; omega⟩

/-- The offset `dx = x - mx` of field `n` at pixel `(h, w)`. -/
theorem dx_apply (n : Fin 512) (h w : Fin 256) :
    val_main_v9 (F := Ideal) x0 x2 (ix2 n (pix h w)) = x0 (ix3 h w (0 : Fin 2)) - x2 (ix2 n (0 : Fin 2)) := by
  have hn := n.isLt; have hh := h.isLt; have hw := w.isLt
  rw [val_main_v9_apply, val_main_v8_apply, val_main_v5_apply, val_main_v3_apply, val_main_v1_apply, val_main_v0_apply,
    val_main_v4_apply, val_main_v2_apply]
  have e0 : idx_main_v0 (idx_main_v1 (idx_main_v3 (idx_main_v8 (idx_main_v9 (ix2 n (pix h w)))))) = ix3 h w (0 : Fin 2) :=
    funext fun a => Fin.ext (by
      match a with
      | ⟨0, _⟩ => show ((n.val * 65536 + (h.val * 256 + w.val)) / 1 % 65536 * 2 + 0) / 512 = h.val; omega
      | ⟨1, _⟩ => show ((n.val * 65536 + (h.val * 256 + w.val)) / 1 % 65536 * 2 + 0) / 2 % 256 = w.val; omega
      | ⟨2, _⟩ => show ((n.val * 65536 + (h.val * 256 + w.val)) / 1 % 65536 * 2 + 0) % 2 = 0; omega)
  have e2 : idx_main_v2 (idx_main_v4 (idx_main_v8 (idx_main_v9 (ix2 n (pix h w))))) = ix2 n (0 : Fin 2) :=
    funext fun a => Fin.ext (by
      match a with
      | ⟨0, _⟩ => show (n.val * 65536 + (h.val * 256 + w.val)) / 65536 = n.val; omega
      | ⟨1, _⟩ => rfl)
  rw [e0, e2]
  rfl

/-- The offset `dy = y - my`. -/
theorem dy_apply (n : Fin 512) (h w : Fin 256) :
    val_main_v11 (F := Ideal) x0 x2 (ix2 n (pix h w)) = x0 (ix3 h w (1 : Fin 2)) - x2 (ix2 n (1 : Fin 2)) := by
  have hn := n.isLt; have hh := h.isLt; have hw := w.isLt
  rw [val_main_v11_apply, val_main_v10_apply, val_main_v5_apply, val_main_v3_apply, val_main_v1_apply, val_main_v0_apply,
    val_main_v4_apply, val_main_v2_apply]
  have e0 : idx_main_v0 (idx_main_v1 (idx_main_v3 (idx_main_v10 (idx_main_v11 (ix2 n (pix h w)))))) = ix3 h w (1 : Fin 2) :=
    funext fun a => Fin.ext (by
      match a with
      | ⟨0, _⟩ => show ((n.val * 65536 + (h.val * 256 + w.val)) / 1 % 65536 * 2 + (1 + 0)) / 512 = h.val; omega
      | ⟨1, _⟩ => show ((n.val * 65536 + (h.val * 256 + w.val)) / 1 % 65536 * 2 + (1 + 0)) / 2 % 256 = w.val; omega
      | ⟨2, _⟩ => show ((n.val * 65536 + (h.val * 256 + w.val)) / 1 % 65536 * 2 + (1 + 0)) % 2 = 1; omega)
  have e2 : idx_main_v2 (idx_main_v4 (idx_main_v10 (idx_main_v11 (ix2 n (pix h w))))) = ix2 n (1 : Fin 2) :=
    funext fun a => Fin.ext (by
      match a with
      | ⟨0, _⟩ => show (n.val * 65536 + (h.val * 256 + w.val)) / 65536 = n.val; omega
      | ⟨1, _⟩ => rfl)
  rw [e0, e2]
  rfl

/-- Field `n`'s prediction at pixel `(h, w)`. -/
theorem pred_apply (n : Fin 512) (h w : Fin 256) :
    val_main_v29 (F := Ideal) x0 x2 x3 x4 x5 (ix2 n (pix h w))
      = x5 (ix2 n (0 : Fin 1)) * Ideal.exp (FieldError.negHalf *
          ((x0 (ix3 h w (0 : Fin 2)) - x2 (ix2 n (0 : Fin 2))) * (x0 (ix3 h w (0 : Fin 2)) - x2 (ix2 n (0 : Fin 2))) * x3 (ix2 n (0 : Fin 2))
            + FieldError.two * (x0 (ix3 h w (0 : Fin 2)) - x2 (ix2 n (0 : Fin 2))) * (x0 (ix3 h w (1 : Fin 2)) - x2 (ix2 n (1 : Fin 2))) * x4 (ix2 n (0 : Fin 1))
            + (x0 (ix3 h w (1 : Fin 2)) - x2 (ix2 n (1 : Fin 2))) * (x0 (ix3 h w (1 : Fin 2)) - x2 (ix2 n (1 : Fin 2))) * x3 (ix2 n (1 : Fin 2)))) := by
  rw [val_main_v29_apply, val_main_v28_apply, val_main_v27_apply, val_main_v26_apply, val_main_v25_apply, val_main_cst_0_apply,
    val_main_v24_apply, val_main_v20_apply, val_main_v14_apply, val_main_v12_apply, val_main_v13_apply, val_main_v6_apply,
    val_main_v19_apply, val_main_v17_apply, val_main_v16_apply, val_main_v15_apply, val_main_cst_apply, val_main_v18_apply,
    val_main_v23_apply, val_main_v21_apply, val_main_v22_apply, val_main_v7_apply, dx_apply, dy_apply]
  have e28 : idx_main_v28 (ix2 n (pix h w)) = ix2 n (0 : Fin 1) :=
    funext fun a => Fin.ext (by match a with | ⟨0, _⟩ => rfl | ⟨1, _⟩ => rfl)
  have e18 : idx_main_v18 (ix2 n (pix h w)) = ix2 n (0 : Fin 1) :=
    funext fun a => Fin.ext (by match a with | ⟨0, _⟩ => rfl | ⟨1, _⟩ => rfl)
  have e6 : idx_main_v6 (idx_main_v13 (ix2 n (pix h w))) = ix2 n (0 : Fin 2) :=
    funext fun a => Fin.ext (by match a with | ⟨0, _⟩ => rfl | ⟨1, _⟩ => rfl)
  have e7 : idx_main_v7 (idx_main_v22 (ix2 n (pix h w))) = ix2 n (1 : Fin 2) :=
    funext fun a => Fin.ext (by match a with | ⟨0, _⟩ => rfl | ⟨1, _⟩ => rfl)
  rw [e28, e18, e6, e7]
  rfl

/-- The squared error of field `n` at pixel `(h, w)`, where the reference's last regrouping puts it. -/
theorem sq_apply (n : Fin 512) (h w : Fin 256) :
    val_main_v32 (F := Ideal) x0 x1 x2 x3 x4 x5 (ix3 n h w) = FieldError.sqErr x0 x1 x2 x3 x4 x5 n h w := by
  have hn := n.isLt; have hh := h.isLt; have hw := w.isLt
  rw [val_main_v32_apply, val_main_v31_apply, val_main_v30_apply]
  have e30 : idx_main_v30 (ix3 n h w) = ix2 n (pix h w) :=
    funext fun a => Fin.ext (by
      match a with
      | ⟨0, _⟩ => show ((n.val * 256 + h.val) * 256 + w.val) / 65536 = n.val; omega
      | ⟨1, _⟩ => show ((n.val * 256 + h.val) * 256 + w.val) % 65536 = h.val * 256 + w.val; omega)
  rw [e30, pred_apply]
  rfl

/-- THE REFERENCE'S RESULT: zero plus the total squared error. -/
theorem result_apply (i : S_.Idx) :
    val_main_v33 (F := Ideal) x0 x1 x2 x3 x4 x5 i = FieldError.answer x0 x1 x2 x3 x4 x5 := by
  rw [val_main_v33_apply]
  unfold FieldError.answer FieldError.total
  refine congrArg (Ideal.ofBits .f32 0x00000000#32 + ·) ?_
  rw [FieldError.sum_idx3]
  exact Finset.sum_congr rfl fun n _ => Finset.sum_congr rfl fun h _ => Finset.sum_congr rfl fun w _ =>
    sq_apply x0 x1 x2 x3 x4 x5 n h w

end Cert.ReferenceIdeal.RefValue

end
-- ==== Proof.lean ====
/-
  The kernel and its reference compute one number: the squared error of 512 Gaussian place fields against recorded
  activity on a 256 x 256 grid of pixels, summed over every field and every pixel (Proof/FieldError.lean states it).

  The kernel walks a 32 x 4 grid of tiles, 16 fields by 64 pixel rows each. At every tile it computes the squared
  errors pointwise, sums them along the lanes, the rows and the fields, and adds the tile's sum to a running sum it
  keeps in a one-element accumulator; after the last tile it writes the running sum out, and the program drops the
  result's two unit axes. The reference lays all 65536 pixels along one axis, computes the same pointwise term for every
  field and pixel, and sums the whole `[512, 256, 256]` array at once, from zero.

  Pointwise the two terms are the same products, sums and exponential of the same nine numbers, in the same order
  (Proof/TileValue.lean, Proof/RefValue.lean); the windows' blocks are the tiles' rows of the arguments
  (Proof/BlockReads.lean); the accumulator after each grid point is the sum of the tiles so far, by induction on the
  point (Proof/Found.lean, Proof/Accum.lean); and the tiles partition the index set, so the sum of their sums is the
  sum, addition of extended reals being commutative and associative at the infinities too (Proof/FieldError.lean
  `sum_tiles`). No input needs to be finite for that, so the precondition is never opened. The ideal pass rewrote
  nothing in the kernel, so there is nothing to preserve; the three frames are the generated ones.
-/
import proofs.«129653_j78932908966357_2_alg».proof.Defs
import proofs.«129653_j78932908966357_2_alg».proof.Proof.Gen.Kernel
import proofs.«129653_j78932908966357_2_alg».proof.Proof.Gen.Kernel.Frame
import proofs.«129653_j78932908966357_2_alg».proof.Proof.Gen.KernelIdeal
import proofs.«129653_j78932908966357_2_alg».proof.Proof.Gen.KernelIdeal.Frame
import proofs.«129653_j78932908966357_2_alg».proof.Proof.Gen.ReferenceIdeal
import proofs.«129653_j78932908966357_2_alg».proof.Proof.Gen.ReferenceIdeal.Run
import proofs.«129653_j78932908966357_2_alg».proof.Proof.Gen.ReferenceIdeal.Read
import proofs.«129653_j78932908966357_2_alg».proof.Proof.Gen.Pre_finite_inputs
import proofs.«129653_j78932908966357_2_alg».proof.Proof.Result
import proofs.«129653_j78932908966357_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- On the extended reals both programs end at zero plus the total squared error of arguments that agree. -/
theorem algebraic : Cert.algebraic_KernelIdeal_ReferenceIdeal := by
  intro m ρ m' ρ' _ hagree
  refine ⟨fun c => fun _ => Cert.KernelIdeal.Result.answerOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  funext i
  rw [Cert.ReferenceIdeal.RefValue.result_apply, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
